-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S1x256 : Shape := ⟨2, ![1, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S100000x128 .f32) (main_arg1 : IVec S2x1600000 32) (main_arg2 : IVec S1600000 32) (main_arg3 : FVec F S1x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x256 .f32 := Host.absf main_arg3
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  main_v8
-- ==== Kernel.lean ====
abbrev S100000x128 : Shape := ⟨2, ![100000, 128]⟩
abbrev S2x1600000 : Shape := ⟨2, ![2, 1600000]⟩
abbrev S1600000 : Shape := ⟨1, ![1600000]⟩
abbrev S1x256 : Shape := ⟨2, ![1, 256]⟩
abbrev S1x1600000 : Shape := ⟨2, ![1, 1600000]⟩
abbrev S1x128 : Shape := ⟨2, ![1, 128]⟩
abbrev S128x1 : Shape := ⟨2, ![128, 1]⟩
abbrev S128x2 : Shape := ⟨2, ![128, 2]⟩
abbrev S100000x2 : Shape := ⟨2, ![100000, 2]⟩
abbrev S10000x128 : Shape := ⟨2, ![10000, 128]⟩
abbrev S10000x2 : Shape := ⟨2, ![10000, 2]⟩
abbrev S100000x1 : Shape := ⟨2, ![100000, 1]⟩
abbrev S100000 : Shape := ⟨1, ![100000]⟩
abbrev S_ : Shape := ⟨0, ![]⟩
abbrev S1600000x1 : Shape := ⟨2, ![1600000, 1]⟩

abbrev nBuf : Space → Nat
  | .hbm => 56
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S1x256, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S1x128, .f32⟩
  | .hbm, ⟨9, _⟩ => ⟨S1x128, .f32⟩
  | .hbm, ⟨10, _⟩ => ⟨S128x1, .f32⟩
  | .hbm, ⟨11, _⟩ => ⟨S128x1, .f32⟩
  | .hbm, ⟨12, _⟩ => ⟨S128x2, .f32⟩
  | .hbm, ⟨13, _⟩ => ⟨S100000x2, .f32⟩
  | .hbm, ⟨14, _⟩ => ⟨S100000x1, .f32⟩
  | .hbm, ⟨15, _⟩ => ⟨S100000, .f32⟩
  | .hbm, ⟨16, _⟩ => ⟨S100000x1, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S1600000, .f32⟩
  | .hbm, ⟨38, _⟩ => ⟨S1600000, .f32⟩
  | .hbm, ⟨39, _⟩ => ⟨S_, .f32⟩
  | .hbm, ⟨40, _⟩ => ⟨S1600000, .f32⟩
  | .hbm, ⟨41, _⟩ => ⟨S1600000, .f32⟩
  | .hbm, ⟨42, _⟩ => ⟨S_, .f32⟩
  | .hbm, ⟨43, _⟩ => ⟨S1600000, .f32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000, .f32⟩
  | .hbm, ⟨55, _⟩ => ⟨S1600000x1, .f32⟩
  | .local _ .vmem, ⟨0, _⟩ => ⟨S10000x128, .f32⟩
  | .local _ .vmem, ⟨1, _⟩ => ⟨S10000x128, .f32⟩
  | .local _ .vmem, ⟨2, _⟩ => ⟨S128x2, .f32⟩
  | .local _ .vmem, ⟨3, _⟩ => ⟨S10000x2, .f32⟩
  | .local _ .vmem, ⟨4, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S1x256_S1x128_0_0 : S1x256.Slices ![0, 0] S1x128
  slices_S1x256_S1x128_0_128 : S1x256.Slices ![0, 128] S1x128
  transposes_S1x128_S128x1_1_0 : S1x128.Transposes [1, 0] S128x1
  concatenates_S128x1_S128x1_S128x2_d1 : Shape.Concatenates [S128x1, S128x1] S128x2 1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S10000x2_S10000x2_0_0 : ∀ a, (![0, 0] : Fin 2 → Nat) a + S10000x2.size a ≤ S10000x2.size a
  h_S10000x2 : 0 < S10000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  dot_S10000x128_S128x2_S10000x2_1_0_0_1_n_n_wf : DotDims.WF S10000x128 S128x2 S10000x2 [1] [0] [0] [1] [] []
  gather_S100000_S1600000x1_S1600000_n_0_n_n_0_1_1_wf : GatherDims.WF S100000 S1600000x1 S1600000 [] [0] [] [0] [] 1 ![1]
  gather_S1600000_S1600000x1_S1600000_n_0_n_n_0_1_1_wf : GatherDims.WF S1600000 S1600000x1 S1600000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x2.size a ≤ S100000x2.size a
  hwx0_2 : ∀ i : grid0.Coords, EltTy.bits .f32 = 32 ∨ (Rect.block (s := S100000x2) S10000x2.size (cc0_transform_2 i) (hinb0_2 i)).WholeWords (EltTy.packing .f32)

variable [Facts₀]

def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S1x256 : Shape := ⟨2, ![1, 256]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128x1 : Shape := ⟨2, ![128, 1]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S1x256, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1x128, .f32⟩
  | .hbm, ⟨27, _⟩ => ⟨S1x128, .f32⟩
  | .hbm, ⟨28, _⟩ => ⟨S128x1, .f32⟩
  | .hbm, ⟨29, _⟩ => ⟨S1600000x1, .f32⟩
  | .hbm, ⟨30, _⟩ => ⟨S128x1, .f32⟩
  | .hbm, ⟨31, _⟩ => ⟨S1600000x1, .f32⟩
  | .hbm, ⟨32, _⟩ => ⟨S1600000x1, .f32⟩
  | .hbm, ⟨33, _⟩ => ⟨S1600000x1, .f32⟩
  | .hbm, ⟨34, _⟩ => ⟨S1600000x1, .f32⟩
  | .hbm, ⟨35, _⟩ => ⟨S_, .f32⟩
  | .hbm, ⟨36, _⟩ => ⟨S1600000x1, .f32⟩
  | .hbm, ⟨37, _⟩ => ⟨S1600000x1, .f32⟩
  | .hbm, ⟨38, _⟩ => ⟨S_, .f32⟩
  | .hbm, ⟨39, _⟩ => ⟨S1600000x1, .f32⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x1, .f32⟩
  | .hbm, ⟨50, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1x256_S1x128_0_0 : S1x256.Slices ![0, 0] S1x128
  slices_S1x256_S1x128_0_128 : S1x256.Slices ![0, 128] S1x128
  transposes_S1x128_S128x1_1_0 : S1x128.Transposes [1, 0] S128x1
  bcast_S_S1600000x1 : S_.BroadcastsInDim S1600000x1 (![] : Fin 0 → Fin S1600000x1.rank)
  gather_S100000x128_S1600000x1_S1600000x128_1_0_n_n_0_1_1128_wf : GatherDims.WF S100000x128 S1600000x1 S1600000x128 [1] [0] [] [0] [] 1 ![1, 128]
  dot_S1600000x128_S128x1_S1600000x1_1_0_0_1_n_n_wf : DotDims.WF S1600000x128 S128x1 S1600000x1 [1] [0] [0] [1] [] []
  gather_S1600000x1_S1600000x1_S1600000x1_1_0_n_n_0_1_11_wf : GatherDims.WF S1600000x1 S1600000x1 S1600000x1 [1] [0] [] [0] [] 1 ![1, 1]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def gather_S1600000x1_S1600000x1_S1600000x1_1_0_n_n_0_1_11 : GatherDims S1600000x1 S1600000x1 S1600000x1 where
  offsetDims := [1]
  collapsedSliceDims := [0]
  operandBatchingDims := []
  startIndicesBatchingDims := []
  startIndexMap := [0]
  indexVectorDim := 1
  sliceSizes := ![1, 1]
  wf := gather_S1600000x1_S1600000x1_S1600000x1_1_0_n_n_0_1_11_wf

class Facts : Prop extends Facts₀ where

variable [Facts]
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.Projection.lean ====
/-
  What the kernel body computes from its two blocks.

  The body loads a 10000 × 128 block of node features and the whole 128 × 2 weight block, narrows both to bf16 (at the
  ideal instance a change of format is the identity), and forms their product into a zero accumulator. Entry `(p, q)`
  of what it stores is therefore the sum over `l` of `features (p, l) · weights (l, q)`: node `p`'s score against
  column `q` of the weight block.
-/
import proofs.«140297_j9174050144888_2_alg».proof.Proof.Gen.KernelIdeal.Skeleton
import proofs.«140297_j9174050144888_2_alg».proof.Proof.LibMatRows

noncomputable section

namespace Cert.KernelIdeal.Projection

open Cert.KernelIdeal Cert.KernelIdeal.Gen Idealize.ShloMosaic Idealize.ShloMosaic.ValueIdx

/-- Which coordinate of each operand's index is the row, the column and the contracted position, for the body's
    product record (features contracted along axis 1, weights along axis 0). -/
theorem lhs_row (j : S10000x2.Idx) (q : dot_S10000x128_S128x2_S10000x2_1_0_0_1_n_n.contr.Idx) :
    (dot_S10000x128_S128x2_S10000x2_1_0_0_1_n_n.lhsIdx j q 0).val = (j 0).val := by
  unfold DotDims.lhsIdx
  rw [dif_neg (show ¬(0 : Fin S10000x128.rank) ∈ dot_S10000x128_S128x2_S10000x2_1_0_0_1_n_n.lhsBatch by decide),
    dif_pos (show (0 : Fin S10000x128.rank) ∈ dot_S10000x128_S128x2_S10000x2_1_0_0_1_n_n.lhsNonContracting by decide)]
  rfl
theorem lhs_contr (j : S10000x2.Idx) (q : dot_S10000x128_S128x2_S10000x2_1_0_0_1_n_n.contr.Idx) :
    (dot_S10000x128_S128x2_S10000x2_1_0_0_1_n_n.lhsIdx j q 1).val = (q ⟨0, by decide⟩).val :=
  dot_S10000x128_S128x2_S10000x2_1_0_0_1_n_n.lhsIdx_val_of_single rfl j q
theorem rhs_contr (j : S10000x2.Idx) (q : dot_S10000x128_S128x2_S10000x2_1_0_0_1_n_n.contr.Idx) :
    (dot_S10000x128_S128x2_S10000x2_1_0_0_1_n_n.rhsIdx j q 0).val = (q ⟨0, by decide⟩).val :=
  dot_S10000x128_S128x2_S10000x2_1_0_0_1_n_n.rhsIdx_val_of_single rfl j q
theorem rhs_col (j : S10000x2.Idx) (q : dot_S10000x128_S128x2_S10000x2_1_0_0_1_n_n.contr.Idx) :
    (dot_S10000x128_S128x2_S10000x2_1_0_0_1_n_n.rhsIdx j q 1).val = (j 1).val := by
  unfold DotDims.rhsIdx
  rw [dif_neg (show ¬(1 : Fin S128x2.rank) ∈ dot_S10000x128_S128x2_S10000x2_1_0_0_1_n_n.rhsBatch by decide),
    dif_pos (show (1 : Fin S128x2.rank) ∈ dot_S10000x128_S128x2_S10000x2_1_0_0_1_n_n.rhsNonContracting by decide)]
  rfl

/-- THE BODY'S PRODUCT AT `(p, q)`: row `p` of the feature block against column `q` of the weight block. -/
theorem payload_apply (x0 : Vec Ideal S10000x128 .f32) (x1 : Vec Ideal S128x2 .f32) (p : Fin 10000) (q : Fin 2) :
    k0_pay1 (F := Ideal) x0 x1 (ix2 p q) = ∑ l : Fin 128, x0 (ix2 p l) * x1 (ix2 l q) := by
  unfold k0_pay1
  refine (Cert.MatRows.matmul_zero_apply (M := 10000) (K := 128) (N := 2) dot_S10000x128_S128x2_S10000x2_1_0_0_1_n_n rfl rfl
    lhs_row lhs_contr rhs_contr rhs_col _ _ p q).trans ?_
  refine Finset.sum_congr rfl fun l _ => ?_
  rw [truncf_apply, truncf_apply, shapeCast_self]

/-- A row of 128 entries against a column of 128 entries. -/
def dotRow (r w : Fin 128 → EReal) : EReal := ∑ l : Fin 128, r l * w l

/-- Every node's score against each column of a 128 × 2 weight block: entry `(i, q)` is `∑ l, X (i, l) · Wc (l, q)`. -/
def scores (X : S100000x128.Idx → EReal) (Wc : S128x2.Idx → EReal) : S100000x2.Idx → EReal :=
  fun i => dotRow (fun l => X (ix2 (⟨(i 0).val, idx2_lt0 i⟩ : Fin 100000) l)) (fun l => Wc (ix2 l (⟨(i 1).val, idx2_lt1 i⟩ : Fin 2)))

theorem scores_apply (X : S100000x128.Idx → EReal) (Wc : S128x2.Idx → EReal) (i : Fin 100000) (q : Fin 2) :
    scores X Wc (ix2 i q) = ∑ l : Fin 128, X (ix2 i l) * Wc (ix2 l q) := rfl

/-- The body's product at an index of its block, as a row against a column. -/
theorem payload_at (x0 : Vec Ideal S10000x128 .f32) (x1 : Vec Ideal S128x2 .f32) (j : S10000x2.Idx) :
    k0_pay1 (F := Ideal) x0 x1 j
      = dotRow (fun l => x0 (ix2 (⟨(j 0).val, idx2_lt0 j⟩ : Fin 10000) l)) (fun l => x1 (ix2 l (⟨(j 1).val, idx2_lt1 j⟩ : Fin 2))) := by
  obtain ⟨p, q, rfl⟩ : ∃ (p : Fin 10000) (q : Fin 2), j = ix2 p q := ⟨j 0, j 1, eq_ix2 j⟩
  exact payload_apply x0 x1 p q

end Cert.KernelIdeal.Projection

end
-- ==== Proof.ProjectedArray.lean ====
/-
  The array the region leaves: every node's two scores.

  The grid has ten points; point `t` reads rows `10000 t … 10000 t + 9999` of the node features and the whole
  128 × 2 weight block, and writes back rows `10000 t …` of a 100000 × 2 array. The ten row blocks tile that array, so
  after the region it holds, at `(i, q)`, the sum over `l` of `features (i, l) · weights (l, q)` — one whole-array
  function of the two arrays the region finds.
-/
import proofs.«140297_j9174050144888_2_alg».proof.Proof.Gen.KernelIdeal.Frame
import proofs.«140297_j9174050144888_2_alg».proof.Proof.Projection
import Idealize.ShloMosaic.Lib.Pipeline.Value

noncomputable section

namespace Cert.KernelIdeal.Projected

open Cert.KernelIdeal Cert.KernelIdeal.Gen Idealize.ShloMosaic Idealize.ShloMosaic.TcCoe Idealize.SL.Sem
open Idealize.ShloMosaic.ValueIdx Cert.KernelIdeal.Projection
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The printed index maps, decided over the ten points: the feature window moves with the output window along the
    rows and sits at column block 0; the weight window never moves; the output's row block index is the point's. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of the scores of the two arrays the region finds. -/
theorem flushed_eq (c : Dev nD) (t : Fin cfg0.N) :
    (dats m 0 c).flushed 2 t = ((cfg0.win 2).blk t).view.read (Elt Ideal) (scores (V m c main_arg0) (V m c main_v8)) := by
  show (cfg0.win 2).cut (grid0.coords t) ((dats m 0 c).after 2 t) = _
  rw [after0_2]
  unfold out0_2
  rw [View.canon_unit_zero zeros2]
  simp only [View.ld_unit_zero (S := S10000x128) zeros2, View.ld_unit_zero (S := S128x2) zeros2]
  obtain ⟨e0, e1, e2, e3, e4, e5⟩ := idx_facts t
  funext j
  refine (payload_at (iblk m c 0 t) (iblk m c 1 t) j).trans ?_
  show dotRow (fun l => V m c main_arg0 (((cfg0.win 0).blk t).view.emb (ix2 (⟨(j 0).val, idx2_lt0 j⟩ : Fin 10000) l)))
      (fun l => V m c main_v8 (((cfg0.win 1).blk t).view.emb (ix2 l (⟨(j 1).val, idx2_lt1 j⟩ : Fin 2))))
    = dotRow (fun l => V m c main_arg0 (ix2 (⟨((((cfg0.win 2).blk t).view.emb j) 0).val, idx2_lt0 _⟩ : Fin 100000) l))
      (fun l => V m c main_v8 (ix2 l (⟨((((cfg0.win 2).blk t).view.emb j) 1).val, idx2_lt1 _⟩ : Fin 2)))
  refine congrArg₂ dotRow (funext fun l => ?_) (funext fun l => ?_)
  · have h0 : ((cfg0.win 0).blk t).view.emb (ix2 (⟨(j 0).val, idx2_lt0 j⟩ : Fin 10000) l)
        = ix2 (⟨((((cfg0.win 2).blk t).view.emb j) 0).val, idx2_lt0 _⟩ : Fin 100000) l := by
      funext a; apply Fin.ext
      match a with
      | ⟨0, _⟩ => show win0_0.index t (0 : Fin 2) * 10000 + 1 * (j 0).val = win0_2.index t (0 : Fin 2) * 10000 + 1 * (j 0).val; omega
      | ⟨1, _⟩ => show win0_0.index t (1 : Fin 2) * 128 + 1 * l.val = l.val; omega
    rw [h0]
  · have h1 : ((cfg0.win 1).blk t).view.emb (ix2 l (⟨(j 1).val, idx2_lt1 j⟩ : Fin 2))
        = ix2 l (⟨((((cfg0.win 2).blk t).view.emb j) 1).val, idx2_lt1 _⟩ : Fin 2) := by
      funext a; apply Fin.ext
      match a with
      | ⟨0, _⟩ => show win0_1.index t (0 : Fin 2) * 128 + 1 * l.val = l.val; omega
      | ⟨1, _⟩ => show win0_1.index t (1 : Fin 2) * 2 + 1 * (j 1).val = win0_2.index t (1 : Fin 2) * 2 + 1 * (j 1).val; omega
    rw [h1]

/-- An index of the array is in point `t`'s block iff each coordinate is in the block's range on its axis. -/
theorem mem_blk (t : Fin cfg0.N) (i : S100000x2.Idx) :
    i ∈ ((cfg0.win 2).blk t).view.set ↔ ∀ a : Fin 2, win0_2.index t a * S10000x2.size a ≤ (i a).val ∧ (i a).val < win0_2.index t a * S10000x2.size a + S10000x2.size a := by
  show i ∈ ((View.whole main_v9).slice (win0_2.rect t)).set ↔ _
  rw [View.set_slice_whole, Rect.mem_set_unit]
  exact Iff.rfl

/-- The ten row blocks cover the array: row `r` is in the block of the point whose row block index is `r / 10000`. -/
theorem covered (i : S100000x2.Idx) : ∃ t : Fin cfg0.N, (cfg0.win 2).flush t = true ∧ i ∈ ((cfg0.win 2).blk t).view.set := by
  have hi0 : (i 0).val < 100000 := (i 0).isLt
  have hi1 : (i 1).val < 2 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 2 ≤ (i 1).val ∧ (i 1).val < win0_2.index t (1 : Fin 2) * 2 + 2; omega

/-- THE ARRAY AFTER THE REGION: the scores of the two arrays the region finds. -/
theorem final (c : Dev nD) : (dats m 0 c).arrAt 2 cfg0.N = scores (V m c main_arg0) (V m c main_v8) :=
  (dats m 0 c).arrAt_eq_of_cover 2 _ (fun t _ => flushed_eq m c t) covered

end Cert.KernelIdeal.Projected

end
-- ==== Proof.EdgeGate.lean ====
/-
  Gate weights of the edges of a graph, on the extended reals.

  A graph has 100000 nodes with 128 features each (`x`) and 1600000 edges; edge `e` joins the node named by the word
  `rows e` to the node named by `cols e`. A weight row `W` of 256 entries is read as two vectors of 128: its first
  half `wl` and its second half `wr`. The score of node `i` against a vector `w` is `∑ k, x (i, k) · w k`. Edge `e` has
    logit e  = score (row node of e) wl + score (column node of e) wr,
    weight e = 1 / (1 + exp (− logit e)),
  and the result is `weight e · weight (partner e)`, the partner edge named by a third column of words. A word names a
  position by being read as a signed integer and clamped into the range of positions.

  Both programs compute this function: one takes the two rows of `x` first and scores them, the other scores every node
  once and takes two scores. Taking and scoring commute entry by entry, with no law of arithmetic involved.
-/
import Idealize.ShloMosaic.PureOps.Ideal
import Idealize.ShloMosaic.Lib.ValueIdx

noncomputable section

namespace Cert.EdgeGate

open Idealize.ShloMosaic Idealize.ShloMosaic.ValueIdx

/-- The node features, the weight row, and a column with one entry per edge (words, or the result). -/
abbrev Nodes : Shape := ⟨2, ![100000, 128]⟩
abbrev WeightRow : Shape := ⟨2, ![1, 256]⟩
abbrev EdgeCol : Shape := ⟨2, ![1600000, 1]⟩

/-- A word names a position among `n`: read as a signed integer, clamped into `[0, n − 1]`. -/
def clampPos (n : Nat) (hn : 0 < n) (w : BitVec 32) : Fin n := ⟨min w.toInt.toNat (n - 1), by omega⟩

/-- The first and the second half of the weight row. -/
def leftWeight (W : WeightRow.Idx → EReal) (k : Fin 128) : EReal := W (ix2 (0 : Fin 1) (⟨k.val, by omega⟩ : Fin 256))
def rightWeight (W : WeightRow.Idx → EReal) (k : Fin 128) : EReal := W (ix2 (0 : Fin 1) (⟨128 + k.val, by omega⟩ : Fin 256))

/-- The score of node `i` against a vector of 128 weights. -/
def score (x : Nodes.Idx → EReal) (w : Fin 128 → EReal) (i : Fin 100000) : EReal := ∑ k : Fin 128, x (ix2 i k) * w k

/-- The logit of edge `e`: its row node scored against the first half, plus its column node against the second. -/
def logit (x : Nodes.Idx → EReal) (W : WeightRow.Idx → EReal) (rows cols : IVec EdgeCol 32) (e : Fin 1600000) : EReal :=
  FloatOps.addf (F := Ideal) (φ := .f32)
    (score x (leftWeight W) (clampPos 100000 (by decide) (rows (ix2 e (0 : Fin 1)))))
    (score x (rightWeight W) (clampPos 100000 (by decide) (cols (ix2 e (0 : Fin 1)))))

/-- `1 / (1 + exp (− v))`, the literal one being the word `0x3F800000`. -/
def gate (v : EReal) : EReal :=
  FloatOps.hostDivf (F := Ideal) (φ := .f32) (FloatOps.ofBits .f32 0x3F800000#32)
    (FloatOps.addf (F := Ideal) (φ := .f32) (FloatOps.ofBits .f32 0x3F800000#32)
      (FloatOps.hostUnary (F := Ideal) .exp (φ := .f32) (FloatOps.hostNegf (F := Ideal) (φ := .f32) v)))

/-- The weight of edge `e`. -/
def weight (x : Nodes.Idx → EReal) (W : WeightRow.Idx → EReal) (rows cols : IVec EdgeCol 32) (e : Fin 1600000) : EReal :=
  gate (logit x W rows cols e)

/-- The result at edge `e`: its weight times its partner's. -/
def paired (x : Nodes.Idx → EReal) (W : WeightRow.Idx → EReal) (rows cols partner : IVec EdgeCol 32) (e : Fin 1600000) : EReal :=
  FloatOps.mulf (F := Ideal) (φ := .f32) (weight x W rows cols e)
    (weight x W rows cols (clampPos 1600000 (by decide) (partner (ix2 e (0 : Fin 1)))))

/-- THE RESULT as one column. -/
def edgeWeights (x : Nodes.Idx → EReal) (W : WeightRow.Idx → EReal) (rows cols partner : IVec EdgeCol 32) : EdgeCol.Idx → EReal :=
  fun i => paired x W rows cols partner ⟨(i 0).val, idx2_lt0 i⟩

theorem edgeWeights_apply (x : Nodes.Idx → EReal) (W : WeightRow.Idx → EReal) (rows cols partner : IVec EdgeCol 32)
    (e : Fin 1600000) (z : Fin 1) : edgeWeights x W rows cols partner (ix2 e z) = paired x W rows cols partner e := rfl

end Cert.EdgeGate

end
-- ==== Proof.WeightColumns.lean ====
/-
  The weight block the region is given.

  Before the region the weight row of 256 entries is cut into its two halves of 128, each half is turned from a
  1 × 128 row into a 128 × 1 column, and the two columns are set side by side: a 128 × 2 block whose entry `(l, 0)` is
  the row's entry `l` and whose entry `(l, 1)` is the row's entry `128 + l`.
-/
import proofs.«140297_j9174050144888_2_alg».proof.Proof.Gen.KernelIdeal
import proofs.«140297_j9174050144888_2_alg».proof.Proof.LibMatRows
import proofs.«140297_j9174050144888_2_alg».proof.Proof.EdgeGate

noncomputable section

namespace Cert.KernelIdeal.WeightBlock

open Cert.KernelIdeal Cert.KernelIdeal.Gen Idealize.ShloMosaic Idealize.ShloMosaic.ValueIdx Cert.EdgeGate

/-- The two halves of the weight row as the two columns of a 128 × 2 block. -/
def weightBlock (W : S1x256.Idx → EReal) : S128x2.Idx → EReal :=
  concatenate S128x2 1
    [⟨S128x1, transpose S128x1 [1, 0] (extractStridedSlice S1x128 ![0, 0] W slices_S1x256_S1x128_0_0) transposes_S1x128_S128x1_1_0⟩,
     ⟨S128x1, transpose S128x1 [1, 0] (extractStridedSlice S1x128 ![0, 128] W slices_S1x256_S1x128_0_128) transposes_S1x128_S128x1_1_0⟩]
    concatenates_S128x1_S128x1_S128x2_d1

/-- Column 0 of the block is the first half of the row. -/
theorem weightBlock_left (W : S1x256.Idx → EReal) (l : Fin 128) : weightBlock W (ix2 l (0 : Fin 2)) = leftWeight W l := by
  unfold weightBlock leftWeight
  refine (Cert.MatRows.sideBySide_left (a := 128) (w := 1) (n := 2) rfl _ _ concatenates_S128x1_S128x1_S128x2_d1
    l (0 : Fin 1) (0 : Fin 2) rfl).trans ?_
  refine (transpose_apply [1, 0] _ transposes_S1x128_S128x1_1_0 (ix2 l (0 : Fin 1)) (ix2 (0 : Fin 1) l)
    (fun b => match b with | ⟨0, _⟩ => rfl | ⟨1, _⟩ => rfl)).trans ?_
  exact extractStridedSlice_apply ![0, 0] W slices_S1x256_S1x128_0_0 (ix2 (0 : Fin 1) l)
    (ix2 (0 : Fin 1) (⟨l.val, by omega⟩ : Fin 256)) (fun a => match a with
      | ⟨0, _⟩ => rfl
      | ⟨1, _⟩ => (Nat.zero_add _).symm)

/-- Column 1 of the block is the second half of the row. -/
theorem weightBlock_right (W : S1x256.Idx → EReal) (l : Fin 128) : weightBlock W (ix2 l (1 : Fin 2)) = rightWeight W l := by
  unfold weightBlock rightWeight
  refine (Cert.MatRows.sideBySide_right (a := 128) (w := 1) (n := 2) rfl _ _ concatenates_S128x1_S128x1_S128x2_d1
    l (0 : Fin 1) (1 : Fin 2) rfl).trans ?_
  refine (transpose_apply [1, 0] _ transposes_S1x128_S128x1_1_0 (ix2 l (0 : Fin 1)) (ix2 (0 : Fin 1) l)
    (fun b => match b with | ⟨0, _⟩ => rfl | ⟨1, _⟩ => rfl)).trans ?_
  exact extractStridedSlice_apply ![0, 128] W slices_S1x256_S1x128_0_128 (ix2 (0 : Fin 1) l)
    (ix2 (0 : Fin 1) (⟨128 + l.val, by omega⟩ : Fin 256)) (fun a => match a with
      | ⟨0, _⟩ => rfl
      | ⟨1, _⟩ => rfl)

end Cert.KernelIdeal.WeightBlock

end
-- ==== Proof.LibGatherEntries.lean ====
/-
  Taking entries of a vector by a column of positions (what `a[idx]` of a length-`N` vector at an integer vector of
  length `E` lowers to: a gather with the positions laid out as `[E, 1]`), read at an entry: result entry `r` is the
  vector's entry at the position word `idx[r, 0]` read as a signed integer and clamped into `[0, N − 1]`; when the
  word already names a position, that position. Any extents.
-/
import Idealize.ShloMosaic.PureOps.Ideal
import Idealize.ShloMosaic.Lib.ValueIdx
import Idealize.ShloMosaic.Lib.Pipeline.Value

noncomputable section

namespace Cert.GatherEntries

open Idealize.ShloMosaic Idealize.ShloMosaic.ValueIdx

variable {α : Type}

/-- The dimension numbers of an entry gather: operand `[N]`, start indices `[E, 1]`, result `[E]`; the operand's one
    axis is collapsed and named by the one index component, single entries are taken, the result has no offset axis. -/
abbrev entryDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand's entry at the start index `idx[r, 0]` read signed and clamped into
    `[0, N − 1]`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (r : Fin E) :
    Host.gather (entryDims N E wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (entryDims N E wf).start (ix1 r) idx 0 + (entryDims N E wf).batchCoord (ix1 r) 0
    + (entryDims N E wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 r) ⟨List.idxOf (0 : Fin 1) (entryDims N E wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- When the start index already names a position `p`, the clamp does nothing. -/
theorem gather_entries_apply_of_inRange {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (r : Fin E) (p : Fin N)
    (hp : (idx (ix2 r (0 : Fin 1))).toInt = (p.val : Int)) :
    Host.gather (entryDims N E wf) x idx (ix1 r) = x (ix1 p) := by
  rw [gather_entries_apply hN wf x idx r]
  refine congrArg x (congrArg ix1 (Fin.ext ?_))
  show min (idx (ix2 r (0 : Fin 1))).toInt.toNat (N - 1) = p.val
  rw [hp, Int.toNat_natCast]
  have := p.isLt
  omega

end Cert.GatherEntries

end
-- ==== Proof.KernelTail.lean ====
/-
  What follows the region, read at an edge.

  From the 100000 × 2 array of scores the program takes its two columns as vectors, takes the row node's entry of the
  first and the column node's entry of the second for every edge (two entry gathers), adds them, applies
  `1 / (1 + exp (− ·))`, takes the partner edge's entry of the resulting vector (a third entry gather), multiplies,
  and views the product as a column. An entry gather reads the vector at the clamped word, so at edge `e` the sum is
  the row node's score against the first half of the weight row plus the column node's against the second half: the
  edge's logit. The words pass through one wrapping step (a negative word has the extent added once) and are laid out
  as a column; that step is the same on both programs and is carried along unopened.
-/
import proofs.«140297_j9174050144888_2_alg».proof.Proof.Projection
import proofs.«140297_j9174050144888_2_alg».proof.Proof.WeightColumns
import proofs.«140297_j9174050144888_2_alg».proof.Proof.LibGatherEntries
import Idealize.ShloMosaic.Lib.Pipeline.Value

noncomputable section

namespace Cert.KernelIdeal.Tail

open Cert.KernelIdeal Cert.KernelIdeal.Gen Idealize.ShloMosaic Idealize.ShloMosaic.ValueIdx
open Cert.EdgeGate Cert.KernelIdeal.Projection Cert.KernelIdeal.WeightBlock

/-! ## The stages -/

/-- Column 0 and column 1 of the score array, as vectors over the nodes. -/
def leftScores (ab : S100000x2.Idx → EReal) : S100000.Idx → EReal :=
  shapeCast _ (extractStridedSlice S100000x1 ![0, 0] ab slices_S100000x2_S100000x1_0_0) shapeCasts_S100000x1_S100000
def rightScores (ab : S100000x2.Idx → EReal) : S100000.Idx → EReal :=
  shapeCast _ (extractStridedSlice S100000x1 ![0, 1] ab slices_S100000x2_S100000x1_0_1) shapeCasts_S100000x1_S100000

/-- Row 0 and row 1 of the 2 × 1600000 array of words, as vectors over the edges. -/
def rowWords (a1 : S2x1600000.Idx → BitVec 32) : S1600000.Idx → BitVec 32 :=
  shapeCast _ (extractStridedSlice S1x1600000 ![0, 0] a1 slices_S2x1600000_S1x1600000_0_0) shapeCasts_S1x1600000_S1600000
def colWords (a1 : S2x1600000.Idx → BitVec 32) : S1600000.Idx → BitVec 32 :=
  shapeCast _ (extractStridedSlice S1x1600000 ![1, 0] a1 slices_S2x1600000_S1x1600000_1_0) shapeCasts_S1x1600000_S1600000

/-- A vector of words wrapped once (a negative word has `n` added) and laid out as a column. -/
def wordColumn (n : BitVec 32) (v : S1600000.Idx → BitVec 32) : S1600000x1.Idx → BitVec 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 n))) v)

/-- The vector of ones. -/
def ones : S1600000.Idx → EReal := broadcastInDim S1600000 ![] bcast_S_S1600000 (constant (F := Ideal) S_ .f32 0x3F800000#32)

/-- The gated vector: per edge, `1 / (1 + exp (− (first column at the row node + second column at the column node)))`. -/
def gates (ab : S100000x2.Idx → EReal) (rows cols : S1600000.Idx → BitVec 32) : S1600000.Idx → EReal :=
  Host.divf (F := Ideal) (φ := .f32) ones
    (addf (F := Ideal) (φ := .f32) ones
      (Host.exp (F := Ideal) (φ := .f32) (Host.negf (F := Ideal) (φ := .f32) (addf (F := Ideal) (φ := .f32)
        (Host.gather gather_S100000_S1600000x1_S1600000_n_0_n_n_0_1_1 (leftScores ab) (wordColumn 100000#32 rows))
        (Host.gather gather_S100000_S1600000x1_S1600000_n_0_n_n_0_1_1 (rightScores ab) (wordColumn 100000#32 cols))))))

/-- THE TAIL: each gate times its partner's, as a column. -/
def tail (ab : S100000x2.Idx → EReal) (rows cols partner : S1600000.Idx → BitVec 32) : S1600000x1.Idx → EReal :=
  shapeCast _ (mulf (F := Ideal) (φ := .f32) (gates ab rows cols)
    (Host.gather gather_S1600000_S1600000x1_S1600000_n_0_n_n_0_1_1 (gates ab rows cols) (wordColumn 1600000#32 partner)))
    shapeCasts_S1600000_S1600000x1

/-! ## The stages at an index -/

/-- A column of the score array as a vector, at node `i`. -/
theorem leftScores_apply (ab : S100000x2.Idx → EReal) (i : Fin 100000) : leftScores ab (ix1 i) = ab (ix2 i (0 : Fin 2)) := by
  unfold leftScores
  refine (shapeCast_apply _ shapeCasts_S100000x1_S100000 (ix1 i) (ix2 i (0 : Fin 1)) (by
    rw [Shape.rowMajor_val_two, Shape.rowMajor_val_one]; show i.val * 1 + 0 = i.val; omega)).trans ?_
  exact extractStridedSlice_apply ![0, 0] ab slices_S100000x2_S100000x1_0_0 (ix2 i (0 : Fin 1)) (ix2 i (0 : Fin 2)) (fun a => match a with
    | ⟨0, _⟩ => (Nat.zero_add _).symm
    | ⟨1, _⟩ => rfl)
theorem rightScores_apply (ab : S100000x2.Idx → EReal) (i : Fin 100000) : rightScores ab (ix1 i) = ab (ix2 i (1 : Fin 2)) := by
  unfold rightScores
  refine (shapeCast_apply _ shapeCasts_S100000x1_S100000 (ix1 i) (ix2 i (0 : Fin 1)) (by
    rw [Shape.rowMajor_val_two, Shape.rowMajor_val_one]; show i.val * 1 + 0 = i.val; omega)).trans ?_
  exact extractStridedSlice_apply ![0, 1] ab slices_S100000x2_S100000x1_0_1 (ix2 i (0 : Fin 1)) (ix2 i (1 : Fin 2)) (fun a => match a with
    | ⟨0, _⟩ => (Nat.zero_add _).symm
    | ⟨1, _⟩ => rfl)

/-- The vector of ones at an index is the literal one. -/
theorem ones_apply (i : S1600000.Idx) : ones i = FloatOps.ofBits (F := Ideal) .f32 0x3F800000#32 := by
  unfold ones
  exact broadcastInDim_apply _ bcast_S_S1600000 _ i (fun a => a.elim0) (fun a => a.elim0)

/-- The first entry gather at edge `e`: the row node's score against the first half of the weight row. -/
theorem leftTaken_apply (X : S100000x128.Idx → EReal) (W : S1x256.Idx → EReal) (rc : S1600000x1.Idx → BitVec 32) (e : Fin 1600000) :
    Host.gather gather_S100000_S1600000x1_S1600000_n_0_n_n_0_1_1 (leftScores (scores X (weightBlock W))) rc (ix1 e)
      = score X (leftWeight W) (clampPos 100000 (by decide) (rc (ix2 e (0 : Fin 1)))) := by
  refine (Cert.GatherEntries.gather_entries_apply (N := 100000) (E := 1600000) (by decide)
    gather_S100000_S1600000x1_S1600000_n_0_n_n_0_1_1_wf (leftScores (scores X (weightBlock W))) rc e).trans ?_
  refine (leftScores_apply _ _).trans ?_
  rw [scores_apply]
  unfold score
  exact Finset.sum_congr rfl fun l _ => congrArg (_ * ·) (weightBlock_left W l)

/-- The second entry gather at edge `e`: the column node's score against the second half. -/
theorem rightTaken_apply (X : S100000x128.Idx → EReal) (W : S1x256.Idx → EReal) (rc : S1600000x1.Idx → BitVec 32) (e : Fin 1600000) :
    Host.gather gather_S100000_S1600000x1_S1600000_n_0_n_n_0_1_1 (rightScores (scores X (weightBlock W))) rc (ix1 e)
      = score X (rightWeight W) (clampPos 100000 (by decide) (rc (ix2 e (0 : Fin 1)))) := by
  refine (Cert.GatherEntries.gather_entries_apply (N := 100000) (E := 1600000) (by decide)
    gather_S100000_S1600000x1_S1600000_n_0_n_n_0_1_1_wf (rightScores (scores X (weightBlock W))) rc e).trans ?_
  refine (rightScores_apply _ _).trans ?_
  rw [scores_apply]
  unfold score
  exact Finset.sum_congr rfl fun l _ => congrArg (_ * ·) (weightBlock_right W l)

/-- The gated vector at edge `e` is the edge's weight. -/
theorem gates_apply (X : S100000x128.Idx → EReal) (W : S1x256.Idx → EReal) (rows cols : S1600000.Idx → BitVec 32) (e : Fin 1600000) :
    gates (scores X (weightBlock W)) rows cols (ix1 e)
      = weight X W (wordColumn 100000#32 rows) (wordColumn 100000#32 cols) e := by
  show FloatOps.hostDivf (F := Ideal) (φ := .f32) (ones (ix1 e)) (FloatOps.addf (F := Ideal) (φ := .f32) (ones (ix1 e))
      (FloatOps.hostUnary (F := Ideal) .exp (φ := .f32) (FloatOps.hostNegf (F := Ideal) (φ := .f32) (FloatOps.addf (F := Ideal) (φ := .f32)
        (Host.gather gather_S100000_S1600000x1_S1600000_n_0_n_n_0_1_1 (leftScores (scores X (weightBlock W))) (wordColumn 100000#32 rows) (ix1 e))
        (Host.gather gather_S100000_S1600000x1_S1600000_n_0_n_n_0_1_1 (rightScores (scores X (weightBlock W))) (wordColumn 100000#32 cols) (ix1 e))))))
    = _
  rw [ones_apply, leftTaken_apply, rightTaken_apply]
  rfl

/-- THE TAIL of the scores of `X` against the weight block of `W` is the edge gate weights. -/
theorem tail_eq (X : S100000x128.Idx → EReal) (W : S1x256.Idx → EReal) (rows cols partner : S1600000.Idx → BitVec 32) :
    tail (scores X (weightBlock W)) rows cols partner
      = edgeWeights X W (wordColumn 100000#32 rows) (wordColumn 100000#32 cols) (wordColumn 1600000#32 partner) := by
  funext i
  obtain ⟨e, z, rfl⟩ : ∃ (e : Fin 1600000) (z : Fin 1), i = ix2 e z := ⟨i 0, i 1, eq_ix2 i⟩
  rw [edgeWeights_apply]
  unfold tail
  refine (Cert.MatRows.colCast_apply _ shapeCasts_S1600000_S1600000x1 e z).trans ?_
  show FloatOps.mulf (F := Ideal) (φ := .f32) (gates (scores X (weightBlock W)) rows cols (ix1 e))
      (Host.gather gather_S1600000_S1600000x1_S1600000_n_0_n_n_0_1_1 (gates (scores X (weightBlock W)) rows cols) (wordColumn 1600000#32 partner) (ix1 e))
    = _
  have hg : Host.gather gather_S1600000_S1600000x1_S1600000_n_0_n_n_0_1_1 (gates (scores X (weightBlock W)) rows cols)
        (wordColumn 1600000#32 partner) (ix1 e)
      = gates (scores X (weightBlock W)) rows cols
          (ix1 (clampPos 1600000 (by decide) (wordColumn 1600000#32 partner (ix2 e (0 : Fin 1))))) :=
    Cert.GatherEntries.gather_entries_apply (N := 1600000) (E := 1600000) (by decide)
      gather_S1600000_S1600000x1_S1600000_n_0_n_n_0_1_1_wf _ _ e
  rw [hg, gates_apply, gates_apply]
  rfl

end Cert.KernelIdeal.Tail

end
-- ==== Proof.KernelRun.lean ====
/-
  The kernel program's run, with its result named.

  Before the region the program cuts the array of words into its row and column vectors and builds the 128 × 2
  weight block; the region leaves the 100000 × 2 array of every node's two scores; the lines after it form the gated
  products. So the result is the edge gate weights of the arguments, the three columns of words being the program's
  own wrapped word vectors.
-/
import proofs.«140297_j9174050144888_2_alg».proof.Proof.ProjectedArray
import proofs.«140297_j9174050144888_2_alg».proof.Proof.KernelTail
import Idealize.ShloMosaic.Lib.StableHlo.Run

noncomputable section

namespace Cert.KernelIdeal.Run

open Cert.KernelIdeal Cert.KernelIdeal.Gen Idealize.ShloMosaic Idealize.ShloMosaic.TcCoe Idealize.SL.Sem Idealize.ShloMosaic.StableHlo
open Idealize.ShloMosaic.ValueIdx Cert.EdgeGate
open Cert.KernelIdeal.Projection Cert.KernelIdeal.Projected Cert.KernelIdeal.WeightBlock Cert.KernelIdeal.Tail
open Idealize.ShloMosaic.Pipeline (Dat)

variable (m : (ℓ : Loc nD τ sig) → Buf (Elt Ideal) ℓ) (ρ : Dev nD → PrngReg)

/-! ## What the region finds -/

/-- The weight block is built from the weight row. -/
theorem found_weightBlock (c : Dev nD) :
    (V m c main_v8 : S128x2.Idx → EReal) = weightBlock (m ((c : Thread nD τ).loc main_arg3)) := by
  show StableHlo.after hostOps0 (fun b => m (c, b)) (Proc.devRef .tc main_v8) = _
  after_results; rfl

/-- The row and the column vector of words are cut from the array of words. -/
theorem found_rowWords (c : Dev nD) :
    (V m c main_v1 : S1600000.Idx → BitVec 32) = rowWords (m ((c : Thread nD τ).loc main_arg1)) := by
  show StableHlo.after hostOps0 (fun b => m (c, b)) (Proc.devRef .tc main_v1) = _
  after_results; rfl
theorem found_colWords (c : Dev nD) :
    (V m c main_v3 : S1600000.Idx → BitVec 32) = colWords (m ((c : Thread nD τ).loc main_arg1)) := by
  show StableHlo.after hostOps0 (fun b => m (c, b)) (Proc.devRef .tc main_v3) = _
  after_results; rfl

/-! ## The lines after the region -/

/-- From any buffer contents, the lines after the region leave the tail of four buffers in the result. -/
theorem tail_result (U : Valuation τ sig (Elt Ideal)) :
    StableHlo.after (hostOps1 (F := Ideal)) U (Proc.devRef .tc main_v43)
      = tail (U (Proc.devRef .tc main_v9)) (U (Proc.devRef .tc main_v1)) (U (Proc.devRef .tc main_v3)) (U (Proc.devRef .tc main_arg2)) := by
  after_results_simp <;> rfl

/-- The buffers' contents when the region is left: its arrays as the region leaves them, the rest as it found them. -/
def exitVal (c : Dev nD) : Valuation τ sig (Elt Ideal) :=
  Pipeline.withArrays spec0 c (V0 m c) fun w => (dats m 0 c).arrAt w cfg0.N

theorem exit_scores (c : Dev nD) :
    exitVal m c (Proc.devRef .tc main_v9)
      = scores (m ((c : Thread nD τ).loc main_arg0)) (weightBlock (m ((c : Thread nD τ).loc main_arg3))) := by
  refine (Pipeline.withArrays_arr spec0 launch0.win.arr_inj c _ _ 2).trans ?_
  refine (Projected.final m c).trans ?_
  rw [V_main_arg0, found_weightBlock]

theorem exit_rowWords (c : Dev nD) :
    exitVal m c (Proc.devRef .tc main_v1) = rowWords (m ((c : Thread nD τ).loc main_arg1)) :=
  (Pipeline.withArrays_of_ne _ c (V0 m c) _ main_v1 (by exact (by decide : ∀ w, Pipeline.arrRef spec0 w ≠ main_v1))).trans
    (found_rowWords m c)
theorem exit_colWords (c : Dev nD) :
    exitVal m c (Proc.devRef .tc main_v3) = colWords (m ((c : Thread nD τ).loc main_arg1)) :=
  (Pipeline.withArrays_of_ne _ c (V0 m c) _ main_v3 (by exact (by decide : ∀ w, Pipeline.arrRef spec0 w ≠ main_v3))).trans
    (found_colWords m c)
theorem exit_partnerWords (c : Dev nD) :
    exitVal m c (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)

/-- THE RESULT BUFFER after the run: the edge gate weights of the arguments. -/
theorem result_eq (c : Dev nD) :
    Pipeline.afterTail₀ cfgs (dats m) 0 (V0 m) [hostOps1] c main_v43
      = edgeWeights (m ((c : Thread nD τ).loc main_arg0)) (m ((c : Thread nD τ).loc main_arg3))
          (wordColumn 100000#32 (rowWords (m ((c : Thread nD τ).loc main_arg1))))
          (wordColumn 100000#32 (colWords (m ((c : Thread nD τ).loc main_arg1))))
          (wordColumn 1600000#32 (m ((c : Thread nD τ).loc main_arg2))) := by
  unfold Pipeline.afterTail₀
  show StableHlo.after hostOps1 (exitVal m c) (Proc.devRef .tc main_v43) = _
  rw [tail_result, exit_scores, exit_rowWords, exit_colWords, exit_partnerWords]
  exact tail_eq _ _ _ _ _

/-! ## The run -/

/-- Every weakly fair execution terminates with the result buffer at the edge gate weights of the arguments and the
    arguments unchanged. -/
theorem run : θ_run defs (onTc (τ := τ) (main (F := Ideal))) ⟨m, fun _ => 0, ρ⟩ fun r => ∀ c : Dev nD,
      r.2.mem ((c : Thread nD τ).loc main_v43)
        = edgeWeights (m ((c : Thread nD τ).loc main_arg0)) (m ((c : Thread nD τ).loc main_arg3))
            (wordColumn 100000#32 (rowWords (m ((c : Thread nD τ).loc main_arg1))))
            (wordColumn 100000#32 (colWords (m ((c : Thread nD τ).loc main_arg1))))
            (wordColumn 1600000#32 (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v43 (Pipeline.mem_restRefs_of main_v43 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.LibGatherRows.lean ====
/-
  Taking whole rows of a matrix by a column of row indices (what `x[idx]` of an `[N, C]` array at an integer vector of
  length `E` lowers to: a gather with the indices laid out as `[E, 1]`), read at an entry: result entry `(r, k)` is the
  matrix's entry `(row, k)`, the row being the index word `idx[r, 0]` read as a signed integer and clamped into
  `[0, N − 1]`; when the word already names a row, that row. Any extents.
-/
import Idealize.ShloMosaic.PureOps.Ideal
import Idealize.ShloMosaic.Lib.ValueIdx
import Idealize.ShloMosaic.Lib.Pipeline.Value

noncomputable section

namespace Cert.GatherRows

open Idealize.ShloMosaic Idealize.ShloMosaic.ValueIdx

variable {α : Type}

/-- The dimension numbers of a row gather: operand `[N, C]`, start indices `[E, 1]`, result `[E, C]`; the result's axis 1
    is the offset into the row, operand axis 0 is collapsed and named by the one index component, whole rows are taken. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, k)`: the operand's entry `(row, k)`, the row the start index `idx[r, 0]` read signed and
    clamped into `[0, N − 1]`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (r : Fin E) (k : Fin C) :
    Host.gather (rowDims N C E wf) x idx (ix2 r k)
      = x (ix2 ⟨min (idx (ix2 r (0 : Fin 1))).toInt.toNat (N - 1), by omega⟩ k) := by
  unfold Host.gather
  congr 1
  funext a
  refine Fin.ext ?_
  match a with
  | ⟨0, _⟩ =>
    show (rowDims N C E wf).start (ix2 r k) idx 0 + (rowDims N C E wf).batchCoord (ix2 r k) 0
      + (rowDims N C E wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 r k) ⟨List.idxOf (0 : Fin 2) (rowDims N C E wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C E wf).start (ix2 r k) idx 1 + (rowDims N C E wf).batchCoord (ix2 r k) 1
      + (rowDims N C E wf).offCoord (ix2 r k) 1 = k.val
    rw [GatherDims.batchCoord_eq_zero _ _ _ List.not_mem_nil]
    unfold GatherDims.start
    rw [dif_neg (show (1 : Fin 2) ∉ ([0] : List (Fin 2)) by decide)]
    have hk : (1 : Fin 2) ∈ (rowDims N C E wf).sKept :=
      (GatherDims.mem_sKept _ _).mpr ⟨(by decide : (1 : Fin 2) ∉ ([0] : List (Fin 2))), List.not_mem_nil⟩
    unfold GatherDims.offCoord
    rw [dif_pos hk]
    simp only [Nat.zero_add, Nat.add_zero]
    rfl

/-- When the start index already names a row `p`, the clamp does nothing. -/
theorem gather_rows_apply_of_inRange {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (r : Fin E) (k : Fin C) (p : Fin N)
    (hp : (idx (ix2 r (0 : Fin 1))).toInt = (p.val : Int)) :
    Host.gather (rowDims N C E wf) x idx (ix2 r k) = x (ix2 p k) := by
  rw [gather_rows_apply hN wf x idx r k]
  refine congrArg x (congrArg (fun q => ix2 q k) (Fin.ext ?_))
  show min (idx (ix2 r (0 : Fin 1))).toInt.toNat (N - 1) = p.val
  rw [hp, Int.toNat_natCast]
  have := p.isLt
  omega

end Cert.GatherRows

end
-- ==== Proof.ReferenceGate.lean ====
/-
  The reference computes the edge gate weights.

  It takes the row node's and the column node's 128 features for every edge (two row gathers), multiplies each
  1600000 × 128 matrix by one half of the weight row laid out as a 128 × 1 column, adds, applies
  `1 / (1 + exp (− ·))`, takes the partner edge's entry of the resulting column (a row gather of a one-column matrix)
  and multiplies. Read at edge `e`: a row gather's entry `(e, k)` is `x (node, k)`, the node the clamped word; the
  product's entry is the sum over `k` of those against the half's `k`-th weight, which is that node's score.
-/
import proofs.«140297_j9174050144888_2_alg».proof.Proof.Gen.ReferenceIdeal.Read
import proofs.«140297_j9174050144888_2_alg».proof.Proof.LibGatherRows
import proofs.«140297_j9174050144888_2_alg».proof.Proof.EdgeGate

noncomputable section

namespace Cert.ReferenceIdeal.Gate

open Cert.ReferenceIdeal Cert.ReferenceIdeal.Gen Cert.ReferenceIdeal.Read
open Idealize.ShloMosaic Idealize.ShloMosaic.ValueIdx Cert.EdgeGate

variable (x0 : (⟨S100000x128, .f32⟩ : BufTy).Contents (Elt Ideal)) (x1 : (⟨S2x1600000, .i32⟩ : BufTy).Contents (Elt Ideal))
  (x2 : (⟨S1600000, .i32⟩ : BufTy).Contents (Elt Ideal)) (x3 : (⟨S1x256, .f32⟩ : BufTy).Contents (Elt Ideal))

/-- The row nodes' features taken, at `(e, k)`: feature `k` of the node edge `e`'s row word names. -/
theorem rowFeatures_apply (e : Fin 1600000) (k : Fin 128) :
    val_main_v10 (F := Ideal) x0 x1 (ix2 e k)
      = x0 (ix2 (clampPos 100000 (by decide) (val_main_v9 (F := Ideal) x1 (ix2 e (0 : Fin 1)))) k) := by
  unfold val_main_v10
  exact Cert.GatherRows.gather_rows_apply (N := 100000) (C := 128) (E := 1600000) (by decide)
    gather_S100000x128_S1600000x1_S1600000x128_1_0_n_n_0_1_1128_wf x0 (val_main_v9 (F := Ideal) x1) e k

/-- The column nodes' features taken, at `(e, k)`. -/
theorem colFeatures_apply (e : Fin 1600000) (k : Fin 128) :
    val_main_v17 (F := Ideal) x0 x1 (ix2 e k)
      = x0 (ix2 (clampPos 100000 (by decide) (val_main_v16 (F := Ideal) x1 (ix2 e (0 : Fin 1)))) k) := by
  unfold val_main_v17
  exact Cert.GatherRows.gather_rows_apply (N := 100000) (C := 128) (E := 1600000) (by decide)
    gather_S100000x128_S1600000x1_S1600000x128_1_0_n_n_0_1_1128_wf x0 (val_main_v16 (F := Ideal) x1) e k

/-- The first product at edge `e`: the row node's score against the first half of the weight row. -/
theorem leftScore_apply (e : Fin 1600000) :
    val_main_v21 (F := Ideal) x0 x1 x3 (ix2 e (0 : Fin 1))
      = score x0 (leftWeight x3) (clampPos 100000 (by decide) (val_main_v9 (F := Ideal) x1 (ix2 e (0 : Fin 1)))) := by
  rw [val_main_v21_apply]
  unfold score
  refine Finset.sum_congr rfl fun k _ => ?_
  have hl : lidx_main_v21 (ix2 e (0 : Fin 1)) k = ix2 e k :=
    funext fun a => Fin.ext (by match a with | ⟨0, _⟩ => rfl | ⟨1, _⟩ => rfl)
  rw [hl, rowFeatures_apply, val_main_v20_apply, val_main_v18_apply]
  refine congrArg (_ * ·) ?_
  unfold leftWeight
  refine congrArg x3 (funext fun a => Fin.ext ?_)
  match a with
  | ⟨0, _⟩ => rfl
  | ⟨1, _⟩ => rfl

/-- The second product at edge `e`: the column node's score against the second half. -/
theorem rightScore_apply (e : Fin 1600000) :
    val_main_v23 (F := Ideal) x0 x1 x3 (ix2 e (0 : Fin 1))
      = score x0 (rightWeight x3) (clampPos 100000 (by decide) (val_main_v16 (F := Ideal) x1 (ix2 e (0 : Fin 1)))) := by
  rw [val_main_v23_apply]
  unfold score
  refine Finset.sum_congr rfl fun k _ => ?_
  have hl : lidx_main_v23 (ix2 e (0 : Fin 1)) k = ix2 e k :=
    funext fun a => Fin.ext (by match a with | ⟨0, _⟩ => rfl | ⟨1, _⟩ => rfl)
  rw [hl, colFeatures_apply, val_main_v22_apply, val_main_v19_apply]
  refine congrArg (_ * ·) ?_
  unfold rightWeight
  refine congrArg x3 (funext fun a => Fin.ext ?_)
  match a with
  | ⟨0, _⟩ => rfl
  | ⟨1, _⟩ => rfl

/-- The gated column at edge `e` is the edge's weight. -/
theorem weights_apply (e : Fin 1600000) :
    val_main_v30 (F := Ideal) x0 x1 x3 (ix2 e (0 : Fin 1))
      = weight x0 x3 (val_main_v9 (F := Ideal) x1) (val_main_v16 (F := Ideal) x1) e := by
  rw [val_main_v30_apply, val_main_v29_apply, val_main_cst_3_apply, val_main_v28_apply, val_main_v27_apply, val_main_cst_apply,
    val_main_v26_apply, val_main_v25_apply, val_main_v24_apply, leftScore_apply, rightScore_apply]
  rfl

/-- The partner's entry of the gated column, at edge `e`: the weight of the edge the partner word names. -/
theorem partnerWeights_apply (e : Fin 1600000) :
    val_main_v37 (F := Ideal) x0 x1 x2 x3 (ix2 e (0 : Fin 1))
      = weight x0 x3 (val_main_v9 (F := Ideal) x1) (val_main_v16 (F := Ideal) x1)
          (clampPos 1600000 (by decide) (val_main_v36 (F := Ideal) x2 (ix2 e (0 : Fin 1)))) := by
  unfold val_main_v37
  refine (Cert.GatherRows.gather_rows_apply (N := 1600000) (C := 1) (E := 1600000) (by decide)
    gather_S1600000x1_S1600000x1_S1600000x1_1_0_n_n_0_1_11_wf (val_main_v30 (F := Ideal) x0 x1 x3) (val_main_v36 (F := Ideal) x2) e (0 : Fin 1)).trans ?_
  exact weights_apply x0 x1 x3 _

/-- THE REFERENCE'S RESULT is the edge gate weights of its arguments, the three columns of words being its own
    index stages (each word wrapped once when negative, then laid out as a column). -/
theorem result_eq :
    val_main_v38 (F := Ideal) x0 x1 x2 x3
      = edgeWeights x0 x3 (val_main_v9 (F := Ideal) x1) (val_main_v16 (F := Ideal) x1) (val_main_v36 (F := Ideal) x2) := by
  funext i
  obtain ⟨e, z, rfl⟩ : ∃ (e : Fin 1600000) (z : Fin 1), i = ix2 e z := ⟨i 0, i 1, eq_ix2 i⟩
  obtain rfl : z = 0 := Subsingleton.elim _ _
  rw [val_main_v38_apply, weights_apply, partnerWeights_apply, edgeWeights_apply]
  rfl

end Cert.ReferenceIdeal.Gate

end
-- ==== Proof.lean ====
/-
  The kernel and its reference compute the same gate weights for the edges of a graph.

  There are 100000 nodes with 128 features each, 1600000 edges given by a row word and a column word, a weight row of
  256 entries read as two halves of 128, and a partner word per edge. With `score i w = ∑ k, x (i, k) · w k`,
    logit e  = score (row node of e) (first half) + score (column node of e) (second half),
    weight e = 1 / (1 + exp (− logit e)),
    result e = weight e · weight (partner of e),
  every word naming a position by being wrapped once when negative, read signed and clamped into range
  (Proof/EdgeGate.lean).

  The reference takes the two nodes' feature rows for every edge and multiplies each 1600000 × 128 matrix by a half of
  the weight row (Proof/ReferenceGate.lean). The kernel scores every node against both halves once, in ten row blocks
  of 10000 nodes that tile the 100000 × 2 result (Proof/Projection.lean, Proof/ProjectedArray.lean; the block of
  weights is the two halves set side by side, Proof/WeightColumns.lean), and then takes two scores per edge
  (Proof/KernelTail.lean, Proof/KernelRun.lean). Taking a row and then summing it against a weight vector is summing
  first and then taking the entry: the two sides are the same sum, term by term, so no law of arithmetic on the extended
  reals is used and the finiteness of the inputs is never opened. The kernel's narrowing of its operands to bf16 is
  the identity at the ideal instance, and its product into a zero accumulator is the plain sum.

  The three frames are the generated ones (the reference's is its generated run with the result dropped); the kernel's
  idealization rewrote nothing, so there is nothing to preserve.
-/
import proofs.«140297_j9174050144888_2_alg».proof.Defs
import proofs.«140297_j9174050144888_2_alg».proof.Proof.Gen.Kernel
import proofs.«140297_j9174050144888_2_alg».proof.Proof.Gen.Kernel.Skeleton
import proofs.«140297_j9174050144888_2_alg».proof.Proof.Gen.Kernel.Launch
import proofs.«140297_j9174050144888_2_alg».proof.Proof.Gen.Kernel.Points
import proofs.«140297_j9174050144888_2_alg».proof.Proof.Gen.Kernel.Frame
import proofs.«140297_j9174050144888_2_alg».proof.Proof.Gen.KernelIdeal
import proofs.«140297_j9174050144888_2_alg».proof.Proof.Gen.KernelIdeal.Skeleton
import proofs.«140297_j9174050144888_2_alg».proof.Proof.Gen.KernelIdeal.Launch
import proofs.«140297_j9174050144888_2_alg».proof.Proof.Gen.KernelIdeal.Points
import proofs.«140297_j9174050144888_2_alg».proof.Proof.Gen.KernelIdeal.Frame
import proofs.«140297_j9174050144888_2_alg».proof.Proof.Gen.ReferenceIdeal
import proofs.«140297_j9174050144888_2_alg».proof.Proof.Gen.ReferenceIdeal.Run
import proofs.«140297_j9174050144888_2_alg».proof.Proof.Gen.ReferenceIdeal.Read
import proofs.«140297_j9174050144888_2_alg».proof.Proof.Gen.Pre_finite_inputs
import proofs.«140297_j9174050144888_2_alg».proof.Proof.KernelRun
import proofs.«140297_j9174050144888_2_alg».proof.Proof.ReferenceGate
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the edge gate weights of their arguments; on agreeing arguments the three columns of words
    are the same wrapped word vectors, spelt by each program in its own names. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.Gate.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
